-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S3882x128 : Shape := ⟨2, ![3882, 128]⟩
abbrev S_ : Shape := ⟨0, ![]⟩

class Facts : Prop where
  bcast_S_S3882x128 : S_.BroadcastsInDim S3882x128 (![] : Fin 0 → Fin S3882x128.rank)
  reducesTo_S3882x128_S_d0_1 : S3882x128.ReducesTo [0, 1] S_
  h_S_ : 0 < S_.numel

variable [Facts]

def fn {F : FTy → Type} [FloatOps F] (main_arg0 : IVec S128x512 32) (main_arg1 : FVec F S3882x128 .f32) : IVec S_ 1 :=
  let main_v0 : FVec F S3882x128 .f32 := Host.absf main_arg1
  let main_cst : FVec F S_ .f32 := constant S_ .f32 0x7F800000#32
  let main_v1 : FVec F S3882x128 .f32 := broadcastInDim S3882x128 ![] bcast_S_S3882x128 main_cst
  let main_v2 : IVec S3882x128 1 := cmpf .olt main_v0 main_v1
  let main_c : IVec S_ 1 := constantI S_ 1 1#1
  let main_v3 : IVec S_ 1 := (fun x v => Host.reduce IntOp.andi x v reducesTo_S3882x128_S_d0_1 h_S_) main_v2 main_c
  main_v3
-- ==== Kernel.lean ====
abbrev S128x512 : Shape := ⟨2, ![128, 512]⟩
abbrev S3882x128 : Shape := ⟨2, ![3882, 128]⟩
abbrev S65536x1 : Shape := ⟨2, ![65536, 1]⟩
abbrev S_ : Shape := ⟨0, ![]⟩
abbrev S4096x128 : Shape := ⟨2, ![4096, 128]⟩
abbrev S65536x128 : Shape := ⟨2, ![65536, 128]⟩
abbrev S2048x1 : Shape := ⟨2, ![2048, 1]⟩
abbrev S2048x128 : Shape := ⟨2, ![2048, 128]⟩
abbrev S2048x512 : Shape := ⟨2, ![2048, 512]⟩
abbrev S512x128 : Shape := ⟨2, ![512, 128]⟩
abbrev S128x512x128 : Shape := ⟨3, ![128, 512, 128]⟩

abbrev nBuf : Space → Nat
  | .hbm => 9
  | .vmem => 6
  | .smem => 0
  | _ => 0

abbrev bufTy : (tb : Table) → Fin (tcTables nBuf tb) → BufTy
  | .hbm, ⟨0, _⟩ => ⟨S128x512, .i32⟩
  | .hbm, ⟨1, _⟩ => ⟨S3882x128, .f32⟩
  | .hbm, ⟨2, _⟩ => ⟨S65536x1, .i32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S65536x128, .f32⟩
  | .hbm, ⟨8, _⟩ => ⟨S128x512x128, .f32⟩
  | .local _ .vmem, ⟨0, _⟩ => ⟨S2048x1, .i32⟩
  | .local _ .vmem, ⟨1, _⟩ => ⟨S2048x1, .i32⟩
  | .local _ .vmem, ⟨2, _⟩ => ⟨S4096x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x512_S65536x1 : S128x512.ShapeCasts S65536x1
  pads_S3882x128_S4096x128_02140_000 : S3882x128.Pads (![0, 0] : Fin 2 → Nat) ![214, 0] ![0, 0] S4096x128
  h_S_ : 0 < S_.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x512 : S2048x1.Broadcasts S2048x512
  natLt_1_32 : 1 < 32
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  inb_S4096x128_S512x128_512_0 : ∀ a, (![512, 0] : Fin 2 → Nat) a + S512x128.size a ≤ S4096x128.size a
  inb_S4096x128_S512x128_1024_0 : ∀ a, (![1024, 0] : Fin 2 → Nat) a + S512x128.size a ≤ S4096x128.size a
  inb_S4096x128_S512x128_1536_0 : ∀ a, (![1536, 0] : Fin 2 → Nat) a + S512x128.size a ≤ S4096x128.size a
  inb_S4096x128_S512x128_2048_0 : ∀ a, (![2048, 0] : Fin 2 → Nat) a + S512x128.size a ≤ S4096x128.size a
  inb_S4096x128_S512x128_2560_0 : ∀ a, (![2560, 0] : Fin 2 → Nat) a + S512x128.size a ≤ S4096x128.size a
  inb_S4096x128_S512x128_3072_0 : ∀ a, (![3072, 0] : Fin 2 → Nat) a + S512x128.size a ≤ S4096x128.size a
  inb_S4096x128_S512x128_3584_0 : ∀ a, (![3584, 0] : Fin 2 → Nat) a + S512x128.size a ≤ S4096x128.size a
  shapeCasts_S65536x128_S128x512x128 : S65536x128.ShapeCasts S128x512x128
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .i32 = 32 ∨ (Rect.block (s := S65536x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S3882x128 : Shape := ⟨2, ![3882, 128]⟩
abbrev S128x512x1 : Shape := ⟨3, ![128, 512, 1]⟩
abbrev S1x1x3882 : Shape := ⟨3, ![1, 1, 3882]⟩
abbrev S128x512x3882 : Shape := ⟨3, ![128, 512, 3882]⟩
abbrev S128x512x128 : Shape := ⟨3, ![128, 512, 128]⟩

abbrev nBuf : Space → Nat
  | .hbm => 9
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S3882x128, .f32⟩
  | .hbm, ⟨2, _⟩ => ⟨S128x512x1, .i32⟩
  | .hbm, ⟨3, _⟩ => ⟨S1x1x3882, .i32⟩
  | .hbm, ⟨4, _⟩ => ⟨S128x512x3882, .i32⟩
  | .hbm, ⟨5, _⟩ => ⟨S128x512x3882, .i32⟩
  | .hbm, ⟨6, _⟩ => ⟨S128x512x3882, .i1⟩
  | .hbm, ⟨7, _⟩ => ⟨S128x512x3882, .f32⟩
  | .hbm, ⟨8, _⟩ => ⟨S128x512x128, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S128x512_S128x512x1_0_1 : S128x512.BroadcastsInDim S128x512x1 (![0, 1] : Fin 2 → Fin S128x512x1.rank)
  bcast_S128x512x1_S128x512x3882_0_1_2 : S128x512x1.BroadcastsInDim S128x512x3882 (![0, 1, 2] : Fin 3 → Fin S128x512x3882.rank)
  bcast_S1x1x3882_S128x512x3882_0_1_2 : S1x1x3882.BroadcastsInDim S128x512x3882 (![0, 1, 2] : Fin 3 → Fin S128x512x3882.rank)
  dot_S128x512x3882_S3882x128_S128x512x128_2_0_01_1_n_n_wf : DotDims.WF S128x512x3882 S3882x128 S128x512x128 [2] [0] [0, 1] [1] [] []

variable [Facts₀]

def dot_S128x512x3882_S3882x128_S128x512x128_2_0_01_1_n_n : DotDims S128x512x3882 S3882x128 S128x512x128 where
  lhsContracting := [2]
  rhsContracting := [0]
  lhsNonContracting := [0, 1]
  rhsNonContracting := [1]
  lhsBatch := []
  rhsBatch := []
  wf := dot_S128x512x3882_S3882x128_S128x512x128_2_0_01_1_n_n_wf

class Facts : Prop extends Facts₀ where

variable [Facts]
-- ==== Proof.LibReadBack.lean ====
/-
  A buffer written through its whole block and then loaded through its whole block gives back what was written
  last, whatever was stored before: the reading of an accumulator that a body stores and reloads several times.
  The library states this for a single store; here it is for a store on top of any history of stores.
-/
import Idealize.ShloMosaic.Lib.Pipeline.Value

noncomputable section

namespace Cert.Lib.ReadBack

open Idealize.ShloMosaic

variable {Val : EltTy → Type} {S : Shape} {e : EltTy}

/-- A load through the whole-shape rectangle at zero offsets, of contents whose LAST store went through that same
    rectangle, reads that store's payload; the earlier stores `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.Lib.ReadBack

end
-- ==== Proof.KernelPiece.lean ====
/-
  What one grid step leaves in its output block, as a function of the step's two input blocks.

  The body keeps an accumulator in a scratch buffer: it stores zeros, then eight times loads the accumulator, adds
  one chunk's product and stores it back, and finally copies the accumulator to the output block.  Every load of the
  accumulator reads what the store before it wrote (both go through the whole buffer), so the copied value is the
  eight accumulation steps applied one inside the other to the zero block, each step taking its own 512 rows of the
  staged table.  `stepChain` names that nest; `out_eq_stepChain` says the output block holds it.
-/
import proofs.«149971_j14903536517909_2_alg».proof.Proof.Gen.KernelIdeal.Frame
import proofs.«149971_j14903536517909_2_alg».proof.Proof.LibReadBack
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.Tactic

namespace Cert.KernelIdeal.Piece

open Cert.KernelIdeal Cert.KernelIdeal.Gen

variable {F : FTy → Type} [FloatOps F]

theorem hz : (![0, 0] : Fin 2 → Nat) = fun _ => 0 := funext fun a => by fin_cases a <;> rfl

/-- The lane numbers `0 … 511` every chunk's tokens are compared with. -/
abbrev lanes : IVec S2048x512 32 := iota .tc S2048x512 32 [1] iota_S2048x512_d1_w32

/-- The accumulator after all eight chunks, of the token block `x0` and the staged table `x1`: the body's eight
    accumulation steps nested, innermost first in time, from the zero block. -/
def stepChain (x0 : Vec F S2048x1 .i32) (x1 : Vec F S4096x128 .bf16) : Vec F S2048x128 .f32 :=
  k0_pay2 (k0_pay3 x0) lanes
      (View.ld x1 (Rect.unit ![3584, 0] S512x128.size inb_S4096x128_S512x128_3584_0))
      (k0_pay1
        (k0_pay13 (k0_pay3 x0) lanes
          (View.ld x1 (Rect.unit ![3072, 0] S512x128.size inb_S4096x128_S512x128_3072_0))
          (k0_pay12 (k0_pay3 x0) lanes
            (View.ld x1 (Rect.unit ![2560, 0] S512x128.size inb_S4096x128_S512x128_2560_0))
            (k0_pay11 (k0_pay10 (k0_pay3 x0) lanes)
              (View.ld x1 (Rect.unit ![2048, 0] S512x128.size inb_S4096x128_S512x128_2048_0))
              (k0_pay9 (k0_pay3 x0) lanes
                (View.ld x1 (Rect.unit ![1536, 0] S512x128.size inb_S4096x128_S512x128_1536_0))
                (k0_pay8 (k0_pay3 x0) lanes
                  (View.ld x1 (Rect.unit ![1024, 0] S512x128.size inb_S4096x128_S512x128_1024_0))
                  (k0_pay7
                    (k0_pay6 x0 (View.ld x1 (Rect.unit ![512, 0] S512x128.size inb_S4096x128_S512x128_512_0))
                      (k0_pay5 x0 (View.ld x1 (Rect.unit ![0, 0] S512x128.size inb_S4096x128_S512x128_0_0))
                        k0_pay4)))))))))

/-- The output block after a grid step holds the nested accumulation of the step's token block and the staged table:
    the one store to the output copies the accumulator, and each reload of the accumulator is the store before it. -/
theorem out_eq_stepChain (c : Dev nD) (i : grid0.Coords) (arg1 : Memref sig .tc .vmem S2048x1 .i32) (harg1 : arg1.IsWhole) (arg2 : Memref sig .tc .vmem S4096x128 .bf16) (harg2 : arg2.IsWhole) (arg3 : Memref sig .tc .vmem S2048x128 .f32) (harg3 : arg3.IsWhole) (arg4 : Memref sig .tc .vmem S2048x128 .f32) (harg4 : arg4.IsWhole)
    (x0 : Vec F S2048x1 .i32) (x1 : Vec F S4096x128 .bf16) :
    out0_A_2 c i arg1 harg1 arg2 harg2 arg3 harg3 arg4 harg4 x0 x1 = stepChain x0 x1 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero hz]
  simp only [Cert.Lib.ReadBack.readCov_cons_unit_zero (S := S2048x128) _ hz, View.readAt_eq_ld, harg1.read_unread,
    harg2.read_unread, View.ld_unit_zero (S := S2048x1) hz]
  rfl

end Cert.KernelIdeal.Piece

end
-- ==== Proof.OneHotSum.lean ====
/-
  The arithmetic of a lookup done by one-hot weights, over the extended reals, with no program in sight.

  A token word `w` selects vocabulary row `n` with weight `hot w n`: one when `w` is the 32-bit word of `n`, zero
  otherwise.  The lookup of `w` in a table `E` is `∑ n, hot w n * E n`.  Three facts are recorded here:

  * both integer-to-float conversions of a comparison bit give that weight (the unsigned reading of the bit itself,
    and the signed reading of the bit widened to 32 bits: the widened word is 0 or 1, never negative);
  * subtracting a chunk offset before comparing with a position inside the chunk is comparing with offset + position
    (subtraction of a constant is a bijection of the 32-bit words, so no wrap-around case is lost);
  * a sum over 4096 rows taken in eight chunks of 512, starting from zero, whose terms vanish from row 3882 on,
    is the sum over the first 3882 rows.  Only associativity of `+` and `0 + x = x` are used, so nothing is asked
    of the summands: they may be infinite.
-/
import Idealize.ShloMosaic.PureOps.Ideal
import Idealize.ShloMosaic.PureOps.Ideal.Laws
import Idealize.ShloMosaic.Lib.ValueIdx

noncomputable section

open scoped BigOperators

namespace Cert.OneHot

open Idealize.ShloMosaic Idealize.ShloMosaic.ValueIdx

/-- The one-hot weight of vocabulary row `n` for the token word `w`. -/
def hot (w : BitVec 32) (n : ℕ) : EReal := if w = BitVec.ofNat 32 n then 1 else 0

/-- Row `n` of a table with `R` rows read at column `d`, and zero when the table has no row `n`: a table continued
    by zero rows, so that sums over rows can run over natural numbers. -/
def natRow {R C : ℕ} (X : (⟨2, ![R, C]⟩ : Shape).Idx → EReal) (n : ℕ) (d : Fin C) : EReal :=
  if h : n < R then X (ix2 ⟨n, h⟩ d) else 0

/-- THE SPECIFICATION.  Entry `(b, s, d)` of the result is the lookup of token `tok (b, s)` in the 3882-row table `E`,
    read at column `d`: `∑ n < 3882, hot (tok (b, s)) n * E (n, d)`.  A token outside `0 … 3881` selects no row and
    gives zero. -/
def lookup (tok : (⟨2, ![128, 512]⟩ : Shape).Idx → BitVec 32) (E : (⟨2, ![3882, 128]⟩ : Shape).Idx → EReal) :
    (⟨3, ![128, 512, 128]⟩ : Shape).Idx → EReal :=
  fun i => ∑ n ∈ Finset.range 3882, hot (tok (ix2 (i 0) (i 1))) n * natRow E n (i 2)

/-- The comparison bit read unsigned is the weight. -/
theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · rw [if_pos h, show (a == b) = true from by simpa using h]; simp
  · rw [if_neg h, show (a == b) = false from by simpa using h]; simp

/-- The comparison bit widened to a word and read signed is the weight. -/
theorem sitofp_setWidth_cmpi_eq (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · rw [if_pos h, show (a == b) = true from by simpa using h]
    rw [show ((BitVec.ofBool true).setWidth 32).toInt = 1 from by decide]; simp
  · rw [if_neg h, show (a == b) = false from by simpa using h]
    rw [show ((BitVec.ofBool false).setWidth 32).toInt = 0 from by decide]; simp

/-- Comparing `w - off` with position `j` is comparing `w` with `off + j`. -/
theorem sub_eq_iff (w : BitVec 32) (off j : ℕ) :
    IntOp.subi w (BitVec.ofNat 32 off) = BitVec.ofNat 32 j ↔ w = BitVec.ofNat 32 (off + j) := by
  unfold IntOp.subi
  rw [BitVec.ofNat_add]
  constructor
  · intro h; rw [← h, BitVec.add_comm, BitVec.sub_add_cancel]
  · intro h; rw [h, BitVec.add_comm, BitVec.add_sub_cancel]

/-- So the weight of position `j` of the chunk at `off` is the weight of row `off + j`. -/
theorem hot_sub (w : BitVec 32) (off j : ℕ) :
    (if IntOp.subi w (BitVec.ofNat 32 off) = BitVec.ofNat 32 j then (1 : EReal) else 0) = hot w (off + j) := by
  unfold hot
  by_cases h : w = BitVec.ofNat 32 (off + j)
  · rw [if_pos h, if_pos ((sub_eq_iff w off j).mpr h)]
  · rw [if_neg h, if_neg (fun h' => h ((sub_eq_iff w off j).mp h'))]

/-- The accumulation order of the chunked lookup: from zero, the sums of `g` over eight consecutive runs of 512 rows,
    added one after the other. -/
def eightChunks (g : ℕ → EReal) : EReal :=
  (0 : EReal) + (∑ j ∈ Finset.range 512, g (0 + j)) + (∑ j ∈ Finset.range 512, g (512 + j))
    + (∑ j ∈ Finset.range 512, g (1024 + j)) + (∑ j ∈ Finset.range 512, g (1536 + j))
    + (∑ j ∈ Finset.range 512, g (2048 + j)) + (∑ j ∈ Finset.range 512, g (2560 + j))
    + (∑ j ∈ Finset.range 512, g (3072 + j)) + (∑ j ∈ Finset.range 512, g (3584 + j))

/-- Eight chunks of 512 rows, accumulated from zero in order, are the first 3882 rows when the rest vanish. -/
theorem chunks_eq_sum (g : ℕ → EReal) (hz : ∀ n, 3882 ≤ n → g n = 0) :
    eightChunks g = ∑ n ∈ Finset.range 3882, g n := by
  unfold eightChunks
  have h4096 : ∑ n ∈ Finset.range 4096, g n = ∑ n ∈ Finset.range 3882, g n := by
    rw [show (4096 : ℕ) = 3882 + 214 from rfl, Finset.sum_range_add,
      Finset.sum_eq_zero (fun j _ => hz (3882 + j) (Nat.le_add_right _ _)), add_zero]
  rw [← h4096, zero_add]
  rw [show (4096 : ℕ) = 3584 + 512 from rfl, Finset.sum_range_add,
    show (3584 : ℕ) = 3072 + 512 from rfl, Finset.sum_range_add,
    show (3072 : ℕ) = 2560 + 512 from rfl, Finset.sum_range_add,
    show (2560 : ℕ) = 2048 + 512 from rfl, Finset.sum_range_add,
    show (2048 : ℕ) = 1536 + 512 from rfl, Finset.sum_range_add,
    show (1536 : ℕ) = 1024 + 512 from rfl, Finset.sum_range_add,
    show (1024 : ℕ) = 512 + 512 from rfl, Finset.sum_range_add]
  simp only [zero_add]

end Cert.OneHot

end
-- ==== Proof.LibColumn.lean ====
/-
  The keepdims column forms, read at an index (general lemmas: any extents, any element type).

  A per-row quantity is kept as a column: an array of `a` entries viewed as `[a, 1]`, and that column repeated along
  `b` lanes to `[a, b]`. At `(i, u)` the column reads the entry `i` (its second coordinate `u` can only be 0); at
  `(p, c)` the repeated column reads the column's row `p`, whatever the lane `c`.
-/
import Idealize.ShloMosaic.Lib.Pipeline.Value
import Idealize.ShloMosaic.Lib.ValueIdx

namespace Cert.Lib.Column

open Idealize.ShloMosaic Idealize.ShloMosaic.ValueIdx

variable {α : Type}

/-- `Cert.Lib.Column.shapeCast_a_a1_apply`: an `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- `Cert.Lib.Column.broadcastTo_a1_ab_apply`: an `[a, 1]` column broadcast to `[a, b]` reads, at `(p, c)`, the
    column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBody.lean ====
/-
  One grid step's accumulator, entry by entry, over the extended reals.

  Every accumulation step of the body has one shape: to the accumulator it adds the product of a one-hot block with 512
  rows of the staged table.  The one-hot block of the chunk at offset `off` has, at `(p, j)`, the comparison of
  `token p - off` with the lane number `j`, widened and read signed — the weight `hot (token p) (off + j)`.  The product
  into a zero accumulator is, at `(p, q)`, the sum over the 512 lanes `j` of that weight times row `j` of the chunk.
  Since the chunk at `off` is rows `off … off + 511` of the staged table, entry `(p, q)` of the accumulator after the
  eight steps is zero plus eight sums of `hot (token p) n * table (n, q)` over the eight runs of 512 consecutive `n`.
-/
import proofs.«149971_j14903536517909_2_alg».proof.Proof.KernelPiece
import proofs.«149971_j14903536517909_2_alg».proof.Proof.OneHotSum
import proofs.«149971_j14903536517909_2_alg».proof.Proof.LibColumn
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.Tactic

namespace Cert.KernelIdeal.Body

open Cert.KernelIdeal Cert.KernelIdeal.Gen Cert.KernelIdeal.Piece Cert.OneHot Idealize.ShloMosaic.ValueIdx

/-- The dimension numbers of every chunk's product: `[2048, 512] × [512, 128]`, contracting the 512 lanes. -/
abbrev D : DotDims S2048x512 S512x128 S2048x128 := dot_S2048x512_S512x128_S2048x128_1_0_0_1_n_n

/-- ONE ACCUMULATION STEP at the ideal values: the accumulator `acc` plus the product of the one-hot block of the tokens
    `w1` against the lane numbers `ln` at chunk offset `off` with the chunk `E` of the table. -/
def step (w1 : IVec S2048x1 32) (ln : IVec S2048x512 32) (off : BitVec 32) (E : FVec Ideal S512x128 .bf16)
    (acc : FVec Ideal S2048x128 .f32) : FVec Ideal S2048x128 .f32 :=
  addf acc (matmul D none
    (truncf .bf16 (sitofp .f32 (extui 32 (cmpi .eq (broadcastTo S2048x512 (subi w1 (broadcast S2048x1 off))
      broadcasts_S2048x1_S2048x512) ln) natLt_1_32)) bitsLt_bf16_f32)
    (shapeCast S512x128 E shapeCasts_S512x128_S512x128) (constant (F := Ideal) S2048x128 .f32 0x00000000#32))

/-! ## Each of the body's stored values is a step (some through a cast to the same shape) -/

theorem pay5_eq (x0 : Vec Ideal S2048x1 .i32) (E : Vec Ideal S512x128 .bf16) (acc : Vec Ideal S2048x128 .f32) :
    k0_pay5 x0 E acc = step (k0_pay3 x0) lanes 0#32 E acc := shapeCast_self _ _
theorem pay6_eq (x0 : Vec Ideal S2048x1 .i32) (E : Vec Ideal S512x128 .bf16) (acc : Vec Ideal S2048x128 .f32) :
    k0_pay6 x0 E acc = step (k0_pay3 x0) lanes 512#32 E acc := rfl
theorem pay7_eq (acc : FVec Ideal S2048x128 .f32) : k0_pay7 acc = acc := shapeCast_self _ _
theorem pay8_eq (w1 : IVec S2048x1 32) (ln : IVec S2048x512 32) (E : Vec Ideal S512x128 .bf16) (acc : Vec Ideal S2048x128 .f32) :
    k0_pay8 w1 ln E acc = step w1 ln 1024#32 E acc := shapeCast_self _ _
theorem pay9_eq (w1 : IVec S2048x1 32) (ln : IVec S2048x512 32) (E : Vec Ideal S512x128 .bf16) (acc : Vec Ideal S2048x128 .f32) :
    k0_pay9 w1 ln E acc = step w1 ln 1536#32 E acc := shapeCast_self _ _
theorem pay11_eq (w1 : IVec S2048x1 32) (ln : IVec S2048x512 32) (E : Vec Ideal S512x128 .bf16) (acc : Vec Ideal S2048x128 .f32) :
    k0_pay11 (k0_pay10 w1 ln) E acc = step w1 ln 2048#32 E acc := shapeCast_self _ _
theorem pay12_eq (w1 : IVec S2048x1 32) (ln : IVec S2048x512 32) (E : Vec Ideal S512x128 .bf16) (acc : Vec Ideal S2048x128 .f32) :
    k0_pay12 w1 ln E acc = step w1 ln 2560#32 E acc := shapeCast_self _ _
theorem pay13_eq (w1 : IVec S2048x1 32) (ln : IVec S2048x512 32) (E : Vec Ideal S512x128 .bf16) (acc : Vec Ideal S2048x128 .f32) :
    k0_pay13 w1 ln E acc = step w1 ln 3072#32 E acc := rfl
theorem pay1_eq (acc : FVec Ideal S2048x128 .f32) : k0_pay1 acc = acc := shapeCast_self _ _
theorem pay2_eq (w1 : IVec S2048x1 32) (ln : IVec S2048x512 32) (E : Vec Ideal S512x128 .bf16) (acc : Vec Ideal S2048x128 .f32) :
    k0_pay2 w1 ln E acc = step w1 ln 3584#32 E acc := shapeCast_self _ _
theorem pay3_eq (x0 : Vec Ideal S2048x1 .i32) : k0_pay3 x0 = x0 := shapeCast_self _ _
/-- The block the accumulator starts from is zero everywhere. -/
theorem pay4_apply (j : S2048x128.Idx) : k0_pay4 (F := Ideal) j = 0 := by
  unfold k0_pay4
  rw [shapeCast_self]
  exact Ideal.ofBits_zero_f32

/-! ## A step at an entry -/

theorem lhs0 (j : S2048x128.Idx) (k : D.contr.Idx) : (D.lhsIdx j k 0).val = (j 0).val := by
  unfold DotDims.lhsIdx
  rw [dif_neg (show ¬(0 : Fin S2048x512.rank) ∈ D.lhsBatch by decide), dif_pos (show (0 : Fin S2048x512.rank) ∈ D.lhsNonContracting by decide)]
  rfl
theorem rhs1 (j : S2048x128.Idx) (k : D.contr.Idx) : (D.rhsIdx j k 1).val = (j 1).val := by
  unfold DotDims.rhsIdx
  rw [dif_neg (show ¬(1 : Fin S512x128.rank) ∈ D.rhsBatch by decide), dif_pos (show (1 : Fin S512x128.rank) ∈ D.rhsNonContracting by decide)]
  rfl

/-- Entry `(p, j)` of the one-hot block at chunk offset `off` is the weight of row `off + j` for token `p`. -/
theorem onehot_apply (w1 : IVec S2048x1 32) (off : ℕ) (p : Fin 2048) (j : Fin 512) :
    (truncf .bf16 (sitofp .f32 (extui 32 (cmpi .eq (broadcastTo S2048x512 (subi w1 (broadcast S2048x1 (BitVec.ofNat 32 off)))
      broadcasts_S2048x1_S2048x512) lanes) natLt_1_32)) bitsLt_bf16_f32 : FVec Ideal S2048x512 .bf16) (ix2 p j)
      = hot (w1 (ix2 p 0)) (off + j.val) := by
  show FloatOps.sitofp (F := Ideal) .f32 ((IntOp.cmpi .eq (broadcastTo S2048x512 (subi w1 (broadcast S2048x1 (BitVec.ofNat 32 off)))
      broadcasts_S2048x1_S2048x512 (ix2 p j)) (lanes (ix2 p j))).setWidth 32) = _
  have hl : lanes (ix2 p j) = BitVec.ofNat 32 j.val := iota_single_apply .tc S2048x512 32 1 iota_S2048x512_d1_w32 (ix2 p j)
  rw [Cert.Lib.Column.broadcastTo_a1_ab_apply, hl, sitofp_setWidth_cmpi_eq]
  exact hot_sub (w1 (ix2 p 0)) off j.val

/-- A step at entry `(p, q)`: the accumulator there plus the 512 weighted rows of the chunk. -/
theorem step_apply (w1 : IVec S2048x1 32) (off : ℕ) (E : FVec Ideal S512x128 .bf16) (acc : FVec Ideal S2048x128 .f32)
    (p : Fin 2048) (q : Fin 128) :
    step w1 lanes (BitVec.ofNat 32 off) E acc (ix2 p q)
      = acc (ix2 p q) + ∑ j ∈ Finset.range 512, hot (w1 (ix2 p 0)) (off + j) * natRow (R := 512) (C := 128) E j q := by
  unfold step
  rw [addf_apply]
  refine congrArg (acc (ix2 p q) + ·) ?_
  refine (Ideal.matmul_constant_zero_apply D none _ _ (ix2 p q)).trans ?_
  rw [← Equiv.sum_comp (contrEquiv1 D 512 rfl rfl).symm,
    ← Fin.sum_univ_eq_sum_range (fun j => hot (w1 (ix2 p 0)) (off + j) * natRow (R := 512) (C := 128) E j q) 512]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs0 _ _
    | ⟨1, _⟩ => exact (D.lhsIdx_val_of_single rfl _ _).trans hk)
  have er : D.rhsIdx (ix2 p q) ((contrEquiv1 D 512 rfl rfl).symm k) = ix2 k q := funext fun a => Fin.ext (by
    match a with
    | ⟨0, _⟩ => exact (D.rhsIdx_val_of_single rfl _ _).trans hk
    | ⟨1, _⟩ => exact rhs1 _ _)
  rw [el, er, onehot_apply, shapeCast_self]
  unfold natRow
  rw [dif_pos k.isLt]

/-! ## The eight steps -/

/-- Rows `off … off + 511` of the staged table, continued by zero, are the table's rows shifted by `off`. -/
theorem chunk_row (x1 : Vec Ideal S4096x128 .bf16) (off : ℕ) (inb : ∀ a, (![off, 0] : Fin 2 → Nat) a + S512x128.size a ≤ S4096x128.size a)
    (j : ℕ) (hj : j < 512) (q : Fin 128) :
    natRow (R := 512) (C := 128) (View.ld x1 (Rect.unit ![off, 0] S512x128.size inb)) j q = natRow (R := 4096) (C := 128) x1 (off + j) q := by
  have h0 : off + 512 ≤ 4096 := inb 0
  unfold natRow
  rw [dif_pos hj, dif_pos (show off + j < 4096 by omega)]
  show x1 ((Rect.unit (s := S4096x128) ![off, 0] S512x128.size inb).emb (ix2 ⟨j, hj⟩ q)) = _
  refine congrArg x1 (funext fun a => Fin.ext ?_)
  match a with
  | ⟨0, _⟩ => show off + 1 * j = off + j; omega
  | ⟨1, _⟩ => show 0 + 1 * q.val = q.val; omega

/-- One chunk's sum over its 512 lanes is the sum over rows `off … off + 511` of the whole staged table. -/
theorem chunk_sum (w : BitVec 32) (x1 : Vec Ideal S4096x128 .bf16) (off : ℕ)
    (inb : ∀ a, (![off, 0] : Fin 2 → Nat) a + S512x128.size a ≤ S4096x128.size a) (q : Fin 128) :
    ∑ j ∈ Finset.range 512, hot w (off + j) * natRow (R := 512) (C := 128) (View.ld x1 (Rect.unit ![off, 0] S512x128.size inb)) j q
      = ∑ j ∈ Finset.range 512, hot w (off + j) * natRow (R := 4096) (C := 128) x1 (off + j) q :=
  Finset.sum_congr rfl fun j hj => by rw [chunk_row x1 off inb j (Finset.mem_range.mp hj) q]

/-- ENTRY `(p, q)` OF THE ACCUMULATOR AFTER THE EIGHT STEPS: zero plus, chunk after chunk, the weighted rows of the
    staged table — with `g n = hot (token p) n * table (n, q)`. -/
theorem stepChain_apply_sums (x0 : Vec Ideal S2048x1 .i32) (x1 : Vec Ideal S4096x128 .bf16) (p : Fin 2048) (q : Fin 128) :
    stepChain x0 x1 (ix2 p q)
      = (0 : EReal) + (∑ j ∈ Finset.range 512, hot (x0 (ix2 p 0)) (0 + j) * natRow (R := 4096) (C := 128) x1 (0 + j) q)
        + (∑ j ∈ Finset.range 512, hot (x0 (ix2 p 0)) (512 + j) * natRow (R := 4096) (C := 128) x1 (512 + j) q)
        + (∑ j ∈ Finset.range 512, hot (x0 (ix2 p 0)) (1024 + j) * natRow (R := 4096) (C := 128) x1 (1024 + j) q)
        + (∑ j ∈ Finset.range 512, hot (x0 (ix2 p 0)) (1536 + j) * natRow (R := 4096) (C := 128) x1 (1536 + j) q)
        + (∑ j ∈ Finset.range 512, hot (x0 (ix2 p 0)) (2048 + j) * natRow (R := 4096) (C := 128) x1 (2048 + j) q)
        + (∑ j ∈ Finset.range 512, hot (x0 (ix2 p 0)) (2560 + j) * natRow (R := 4096) (C := 128) x1 (2560 + j) q)
        + (∑ j ∈ Finset.range 512, hot (x0 (ix2 p 0)) (3072 + j) * natRow (R := 4096) (C := 128) x1 (3072 + j) q)
        + (∑ j ∈ Finset.range 512, hot (x0 (ix2 p 0)) (3584 + j) * natRow (R := 4096) (C := 128) x1 (3584 + j) q) := by
  unfold stepChain
  rw [pay2_eq, pay1_eq, pay13_eq, pay12_eq, pay11_eq, pay9_eq, pay8_eq, pay7_eq, pay6_eq, pay5_eq, pay3_eq]
  rw [step_apply x0 3584, step_apply x0 3072, step_apply x0 2560, step_apply x0 2048, step_apply x0 1536,
    step_apply x0 1024, step_apply x0 512, step_apply x0 0, pay4_apply]
  rw [chunk_sum _ x1 0, chunk_sum _ x1 512, chunk_sum _ x1 1024, chunk_sum _ x1 1536, chunk_sum _ x1 2048,
    chunk_sum _ x1 2560, chunk_sum _ x1 3072, chunk_sum _ x1 3584]

/-- The same, with the accumulation order named. -/
theorem stepChain_apply (x0 : Vec Ideal S2048x1 .i32) (x1 : Vec Ideal S4096x128 .bf16) (p : Fin 2048) (q : Fin 128) :
    stepChain x0 x1 (ix2 p q) = eightChunks (fun n => hot (x0 (ix2 p 0)) n * natRow (R := 4096) (C := 128) x1 n q) :=
  stepChain_apply_sums x0 x1 p q

end Cert.KernelIdeal.Body

end
-- ==== Proof.HostSide.lean ====
/-
  What the host lines before the kernel hand it, as functions of the two arguments.

  The tokens `[128, 512]` are flattened to a column `[65536, 1]`: row `512 b + s` of the column is token `(b, s)`.
  The table `[3882, 128]` is continued by 214 rows of the converted integer zero to `[4096, 128]` and then re-typed
  (no change of value at the ideal instance): its row `n` is the table's row `n` for `n < 3882` and zero from there on —
  which is exactly the table "continued by zero rows" (`natRow`) that the one-hot sums are written over.
-/
import proofs.«149971_j14903536517909_2_alg».proof.Proof.Gen.KernelIdeal.Frame
import proofs.«149971_j14903536517909_2_alg».proof.Proof.OneHotSum
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.Tactic

namespace Cert.KernelIdeal.HostSide

open Cert.KernelIdeal Cert.KernelIdeal.Gen Cert.OneHot Idealize.ShloMosaic.ValueIdx Idealize.ShloMosaic.StableHlo

variable {F : FTy → Type} [FloatOps F]
variable (m : (ℓ : Loc nD τ sig) → Buf (Elt F) ℓ)

/-- The table as staged for the kernel: padded below with the converted integer zero to 4096 rows, then re-typed. -/
def paddedTable (E : S3882x128.Idx → Elt F .f32) : S4096x128.Idx → Elt F .bf16 :=
  truncf .bf16 (pad S4096x128 ![0, 0] ![214, 0] ![0, 0] E (sitofp (F := F) .f32 (constantI S_ 32 0#32))
    pads_S3882x128_S4096x128_02140_000 h_S_) bitsLt_bf16_f32

/-- The token column the kernel's first window reads is the flattened token argument. -/
theorem V_main_v0 (c : Dev nD) :
    (V m c main_v0 : S65536x1.Idx → Elt F .i32)
      = shapeCast S65536x1 (m ((c : Thread nD τ).loc main_arg0)) shapeCasts_S128x512_S65536x1 := by
  dsimp only [Gen.V, Gen.V0]
  simp only [Gen.hostOps0, Gen.hostOps0_1, Gen.hostOps0_2, List.flatten_cons, List.flatten_nil, List.append_nil, List.cons_append,
    List.nil_append]
  after_results
  rfl

/-- The array the kernel's second window reads is the padded, re-typed table argument. -/
theorem V_main_v2 (c : Dev nD) :
    (V m c main_v2 : S4096x128.Idx → Elt F .bf16) = paddedTable (m ((c : Thread nD τ).loc main_arg1)) := by
  dsimp only [Gen.V, Gen.V0]
  simp only [Gen.hostOps0, Gen.hostOps0_1, Gen.hostOps0_2, List.flatten_cons, List.flatten_nil, List.append_nil, List.cons_append,
    List.nil_append]
  after_results
  rfl

/-- Row `512 b + s` of the flattened column is token `(b, s)`. -/
theorem flat_tok {α : Type} (x : S128x512.Idx → α) (b : Fin 128) (s : Fin 512) (r : Fin 65536)
    (hr : r.val = b.val * 512 + s.val) :
    shapeCast S65536x1 x shapeCasts_S128x512_S65536x1 (ix2 r (0 : Fin 1)) = x (ix2 b s) :=
  shapeCast_apply x _ _ _ (by
    rw [Shape.rowMajor_val_two, Shape.rowMajor_val_two]
    show b.val * 512 + s.val = r.val * 1 + 0
    omega)

/-- Row `n` of the staged table, continued by zero, is row `n` of the table argument continued by zero: the padding
    rows are zero (the integer zero converted), and re-typing changes nothing at the ideal values. -/
theorem paddedTable_row (E : S3882x128.Idx → Ideal .f32) (n : ℕ) (d : Fin 128) :
    natRow (R := 4096) (C := 128) (paddedTable (F := Ideal) E) n d = natRow (R := 3882) (C := 128) E n d := by
  unfold natRow
  by_cases h1 : n < 3882
  · have h2 : n < 4096 := by omega
    rw [dif_pos h2, dif_pos h1]
    show pad S4096x128 ![0, 0] ![214, 0] ![0, 0] E (sitofp (F := Ideal) .f32 (constantI S_ 32 0#32))
      pads_S3882x128_S4096x128_02140_000 h_S_ (ix2 ⟨n, h2⟩ d) = _
    unfold pad
    have hin : ∀ a : Fin S3882x128.rank, (![0, 0] : Fin 2 → Nat) a ≤ ((ix2 (⟨n, h2⟩ : Fin 4096) d) (a.cast pads_S3882x128_S4096x128_02140_000.1)).val
        ∧ (((ix2 (⟨n, h2⟩ : Fin 4096) d) (a.cast pads_S3882x128_S4096x128_02140_000.1)).val - (![0, 0] : Fin 2 → Nat) a) % ((![0, 0] : Fin 2 → Nat) a + 1) = 0
        ∧ (((ix2 (⟨n, h2⟩ : Fin 4096) d) (a.cast pads_S3882x128_S4096x128_02140_000.1)).val - (![0, 0] : Fin 2 → Nat) a) / ((![0, 0] : Fin 2 → Nat) a + 1) < S3882x128.size a := by
      intro a
      match a with
      | ⟨0, _⟩ => show 0 ≤ n ∧ (n - 0) % (0 + 1) = 0 ∧ (n - 0) / (0 + 1) < 3882; omega
      | ⟨1, _⟩ => show 0 ≤ d.val ∧ (d.val - 0) % (0 + 1) = 0 ∧ (d.val - 0) / (0 + 1) < 128; have := d.isLt; omega
    rw [dif_pos hin]
    refine congrArg E (funext fun a => Fin.ext ?_)
    match a with
    | ⟨0, _⟩ => show (n - 0) / (0 + 1) = n; omega
    | ⟨1, _⟩ => show (d.val - 0) / (0 + 1) = d.val; omega
  · rw [dif_neg h1]
    by_cases h2 : n < 4096
    · rw [dif_pos h2]
      show pad S4096x128 ![0, 0] ![214, 0] ![0, 0] E (sitofp (F := Ideal) .f32 (constantI S_ 32 0#32))
        pads_S3882x128_S4096x128_02140_000 h_S_ (ix2 ⟨n, h2⟩ d) = _
      unfold pad
      rw [dif_neg (fun hin => by
        have h := (hin 0).2.2
        change (n - 0) / (0 + 1) < 3882 at h
        omega)]
      show (((0#32 : BitVec 32).toInt : ℝ) : EReal) = 0
      simp
    · rw [dif_neg h2]

end Cert.KernelIdeal.HostSide

end
-- ==== Proof.KernelArray.lean ====
/-
  From one grid step's block to the whole result.

  Grid step `t` works on rows `2048 t … 2048 t + 2047`: its token block is those rows of the token column, its table
  block is the whole staged table at every step, and it writes back those rows of the `[65536, 128]` output.  So every
  step writes a block of ONE function of the arrays the region finds, `rows`: at `(r, q)` the eight chunk sums of
  `hot (token r) n * table (n, q)`.  The 32 blocks tile the output, hence the output array ends equal to `rows`.  The
  one host line after the kernel views that array as `[128, 512, 128]`: entry `(b, s, d)` is `rows` at `(512 b + s, d)`.
  Finally the token column at `512 b + s` is token `(b, s)`, the staged table is the table continued by zero rows, and
  eight chunks of a sum whose terms vanish from row 3882 on are the sum of the first 3882 rows: the result is the lookup.
-/
import proofs.«149971_j14903536517909_2_alg».proof.Proof.KernelBody
import proofs.«149971_j14903536517909_2_alg».proof.Proof.HostSide

set_option maxRecDepth 16384

noncomputable section

open scoped BigOperators
open Idealize.ShloMosaic Idealize.ShloMosaic.TcCoe Idealize.SL.Sem Idealize.ShloMosaic.Tactic

namespace Cert.KernelIdeal.Array

open Cert.KernelIdeal Cert.KernelIdeal.Gen Cert.KernelIdeal.Piece Cert.KernelIdeal.Body Cert.KernelIdeal.HostSide Cert.OneHot
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The kernel's output array as ONE function of the token column and the staged table: at `(r, q)`, from zero, the
    eight chunk sums of `hot (token r) n * table (n, q)`. -/
def rows (tok : S65536x1.Idx → BitVec 32) (tab : S4096x128.Idx → EReal) : S65536x128.Idx → EReal :=
  fun i => eightChunks (fun n => hot (tok (ix2 (i 0) (0 : Fin 1))) n * natRow (R := 4096) (C := 128) tab n (i 1))

/-- A step's accumulator at `(p, q)` is `rows` at `(r, q)` when the step's token `p` is token `r` of the column and its
    table block is the staged table. -/
theorem rows_block (tok : S65536x1.Idx → BitVec 32) (tab : S4096x128.Idx → EReal) (x0 : Vec Ideal S2048x1 .i32)
    (x1 : Vec Ideal S4096x128 .bf16) (r : Fin 65536) (p : Fin 2048) (q : Fin 128)
    (h0 : x0 (ix2 p (0 : Fin 1)) = tok (ix2 r (0 : Fin 1)))
    (h1 : ∀ (n : ℕ) (h : n < 4096), x1 (ix2 ⟨n, h⟩ q) = tab (ix2 ⟨n, h⟩ q)) :
    stepChain x0 x1 (ix2 p q) = rows tok tab (ix2 r q) := by
  rw [stepChain_apply, h0]
  show _ = eightChunks (fun n => hot (tok (ix2 r (0 : Fin 1))) n * natRow (R := 4096) (C := 128) tab n q)
  refine congrArg eightChunks (funext fun n => congrArg (hot (tok (ix2 r (0 : Fin 1))) n * ·) ?_)
  unfold natRow
  by_cases h : n < 4096
  · rw [dif_pos h, dif_pos h, h1 n h]
  · rw [dif_neg h, dif_neg h]

/-- The printed index maps over the grid: the token and output windows are at block `(t, 0)`, the table window at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT STEP `t` WRITES BACK is block `t` of `rows` of the arrays the region finds. -/
theorem flushed_eq (c : Dev nD) (t : Fin cfg0.N) :
    (dats m 0 c).flushed 2 t = ((cfg0.win 2).blk t).view.read (Elt Ideal) (rows (V m c main_v0) (V m c main_v2)) := by
  show (cfg0.win 2).cut (grid0.coords t) ((dats m 0 c).after 2 t) = _
  rw [after0_2]
  unfold outsAt0
  rw [out_eq_stepChain]
  obtain ⟨e00, e01, e10, e11, e20, e21⟩ := idx_facts t
  have ht : t.val < 32 := lt_of_lt_of_eq t.isLt N_0
  funext y
  obtain ⟨p, q, rfl⟩ : ∃ (p : Fin 2048) (q : Fin 128), y = ix2 p q := ⟨y 0, y 1, eq_ix2 y⟩
  have hr : t.val * 2048 + p.val < 65536 := by have := p.isLt; omega
  have he : ((cfg0.win 2).blk t).view.emb (ix2 p q) = ix2 (⟨t.val * 2048 + p.val, hr⟩ : Fin 65536) q := by
    funext a; apply Fin.ext
    match a with
    | ⟨0, _⟩ => show win0_2.index t (0 : Fin 2) * 2048 + 1 * p.val = t.val * 2048 + p.val; rw [e20]; omega
    | ⟨1, _⟩ => show win0_2.index t (1 : Fin 2) * 128 + 1 * q.val = q.val; rw [e21]; omega
  show stepChain (iblk m c 0 t) (iblk m c 1 t) (ix2 p q) = rows (V m c main_v0) (V m c main_v2) (((cfg0.win 2).blk t).view.emb (ix2 p q))
  rw [he]
  refine rows_block (V m c main_v0) (V m c main_v2) (iblk m c 0 t) (iblk m c 1 t) ⟨t.val * 2048 + p.val, hr⟩ p q ?_ ?_
  · show V m c main_v0 (((cfg0.win 0).blk t).view.emb (ix2 p (0 : Fin 1))) = _
    refine congrArg (V m c main_v0) (funext fun a => Fin.ext ?_)
    match a with
    | ⟨0, _⟩ => show win0_0.index t (0 : Fin 2) * 2048 + 1 * p.val = t.val * 2048 + p.val; rw [e00]; omega
    | ⟨1, _⟩ => show win0_0.index t (1 : Fin 2) * 1 + 1 * 0 = 0; rw [e01]
  · intro n h
    show V m c main_v2 (((cfg0.win 1).blk t).view.emb (ix2 (⟨n, h⟩ : Fin 4096) q)) = _
    refine congrArg (V m c main_v2) (funext fun a => Fin.ext ?_)
    match a with
    | ⟨0, _⟩ => show win0_1.index t (0 : Fin 2) * 4096 + 1 * n = n; rw [e10]; omega
    | ⟨1, _⟩ => show win0_1.index t (1 : Fin 2) * 128 + 1 * q.val = q.val; rw [e11]; omega

/-- An index of the output array is in step `t`'s block iff each coordinate is in the block's range on its axis. -/
theorem mem_blk (t : Fin cfg0.N) (i : S65536x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v3).slice (win0_2.rect t)).set ↔ _
  rw [View.set_slice_whole, Rect.mem_set_unit]
  exact Iff.rfl

/-- Every row of the output is in the block of the step numbered by its row divided by 2048. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : (i 0).val / 2048 < cfg0.N := lt_of_lt_of_eq (by omega : (i 0).val / 2048 < 32) N_0.symm
  refine ⟨⟨(i 0).val / 2048, hN⟩, flush0_2 _, ?_⟩
  rw [mem_blk]
  obtain ⟨-, -, -, -, e20, e21⟩ := idx_facts ⟨(i 0).val / 2048, hN⟩
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    rw [e20]; dsimp only; omega
  | ⟨1, _⟩ =>
    show win0_2.index ⟨(i 0).val / 2048, hN⟩ (1 : Fin 2) * 128 ≤ (i 1).val
      ∧ (i 1).val < win0_2.index ⟨(i 0).val / 2048, hN⟩ (1 : Fin 2) * 128 + 128
    rw [e21]; omega

/-- THE OUTPUT ARRAY after the kernel: `rows` of the arrays the region finds. -/
theorem final3 (c : Dev nD) : (dats m 0 c).arrAt 2 cfg0.N = rows (V m c main_v0) (V m c main_v2) :=
  (dats m 0 c).arrAt_eq_of_cover 2 (rows (V m c main_v0) (V m c main_v2)) (fun t _ => flushed_eq m c t) cover

/-- THE RESULT after the host line that follows the kernel: the output array viewed `[128, 512, 128]`. -/
theorem tail_eq (c : Dev nD) :
    (Pipeline.afterTail₀ cfgs (dats m) 0 (V0 m) [hostOps1] c main_v4 : S128x512x128.Idx → EReal)
      = shapeCast S128x512x128 (rows (V m c main_v0) (V m c main_v2)) shapeCasts_S65536x128_S128x512x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = rows (V m c main_v0) (V m c main_v2) :=
    (Pipeline.withArrays_arr spec0 launch0.win.arr_inj c _ _ 2).trans (final3 m c)
  rw [hw]
  rfl

/-- The result is the lookup of every token in the table argument. -/
theorem result_eq_lookup (c : Dev nD) :
    shapeCast S128x512x128 (rows (V m c main_v0) (V m c main_v2)) shapeCasts_S65536x128_S128x512x128
      = lookup (m ((c : Thread nD τ).loc main_arg0)) (m ((c : Thread nD τ).loc main_arg1)) := by
  funext i
  obtain ⟨b, s, d, rfl⟩ : ∃ (b : Fin 128) (s : Fin 512) (d : Fin 128), i = ix3 b s d := ⟨i 0, i 1, i 2, eq_ix3 i⟩
  have hr : b.val * 512 + s.val < 65536 := by have := b.isLt; have := s.isLt; omega
  rw [shapeCast_apply _ _ (ix3 b s d) (ix2 (⟨b.val * 512 + s.val, hr⟩ : Fin 65536) d) (by
    rw [Shape.rowMajor_val_two, Shape.rowMajor_val_three]
    show (b.val * 512 + s.val) * 128 + d.val = (b.val * 512 + s.val) * 128 + d.val
    rfl)]
  show eightChunks (fun n => hot (V m c main_v0 (ix2 (⟨b.val * 512 + s.val, hr⟩ : Fin 65536) (0 : Fin 1))) n
      * natRow (R := 4096) (C := 128) (V m c main_v2) n d)
    = ∑ n ∈ Finset.range 3882, hot (m ((c : Thread nD τ).loc main_arg0) (ix2 b s)) n
      * natRow (R := 3882) (C := 128) (m ((c : Thread nD τ).loc main_arg1)) n d
  rw [V_main_v0, V_main_v2, flat_tok _ b s ⟨_, hr⟩ rfl]
  rw [chunks_eq_sum _ (fun n hn => by
    rw [paddedTable_row]; unfold natRow; rw [dif_neg (by omega), mul_zero])]
  exact Finset.sum_congr rfl fun n _ => by rw [paddedTable_row]

/-- THE RUN, READ: every weakly fair execution of the idealized kernel program terminates with the result at the
    lookup of the token argument in the table argument, and both arguments unchanged. -/
theorem run : θ_run defs (onTc (τ := τ) (main (F := Ideal))) ⟨m, fun _ => 0, ρ⟩ fun r => ∀ c : Dev nD,
      r.2.mem ((c : Thread nD τ).loc main_v4) = lookup (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(((h c).2 main_v4 (Pipeline.mem_restRefs_of main_v4 (by decide) (by decide))).trans (tail_eq m c)).trans (result_eq_lookup m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Array

end
-- ==== Proof.RefValue.lean ====
/-
  The reference computes the specification.  Its one-hot matrix has, at `(b, s, n)`, the comparison of the token
  `tok (b, s)` with the word of `n`, read unsigned as a float: the weight `hot (tok (b, s)) n`.  Its contraction
  with the table over `n` is, entry by entry, `∑ n < 3882, hot (tok (b, s)) n * E (n, d)` — the lookup.
-/
import proofs.«149971_j14903536517909_2_alg».proof.Proof.Gen.ReferenceIdeal.Read
import proofs.«149971_j14903536517909_2_alg».proof.Proof.OneHotSum

noncomputable section

open scoped BigOperators

namespace Cert.ReferenceIdeal.RefValue

open Cert.ReferenceIdeal Cert.ReferenceIdeal.Read Idealize.ShloMosaic Idealize.ShloMosaic.ValueIdx Cert.OneHot

/-- The token a one-hot entry `(b, s, n)` compares is the token at `(b, s)`. -/
theorem tok_idx (i : S128x512x128.Idx) (k : Fin 3882) :
    idx_main_call0_v0 (idx_main_call0_v2 (lidx_main_v1 i k)) = ix2 (i 0) (i 1) :=
  funext fun a => Fin.ext (by match a with | ⟨0, _⟩ => rfl | ⟨1, _⟩ => rfl)

/-- The table entry that meets it is row `n`, column `d`. -/
theorem row_idx (i : S128x512x128.Idx) (k : Fin 3882) : ridx_main_v1 i k = ix2 k (i 2) :=
  funext fun a => Fin.ext (by match a with | ⟨0, _⟩ => rfl | ⟨1, _⟩ => rfl)

/-- The reference's result is the lookup of every token. -/
theorem ref_eq_lookup (x0 : (⟨S128x512, .i32⟩ : BufTy).Contents (Elt Ideal)) (x1 : (⟨S3882x128, .f32⟩ : BufTy).Contents (Elt Ideal)) :
    val_main_v1 (F := Ideal) x0 x1 = lookup x0 x1 := by
  funext i
  rw [val_main_v1_apply]
  unfold lookup
  rw [← Fin.sum_univ_eq_sum_range (fun n => hot (x0 (ix2 (i 0) (i 1))) n * natRow x1 n (i 2)) 3882]
  refine Finset.sum_congr rfl fun k _ => ?_
  rw [val_main_v0_apply, val_main_call0_v4_apply, val_main_call0_v2_apply, val_main_call0_v0_apply,
    val_main_call0_v3_apply, val_main_call0_v1_apply, uitofp_cmpi_eq, tok_idx, row_idx]
  unfold hot natRow
  rw [dif_pos k.isLt]
  rfl

end Cert.ReferenceIdeal.RefValue

end
-- ==== Proof.lean ====
/-
  An embedding lookup done by one-hot weights: the kernel against the reference, over the extended reals.

  Both programs compute, for every token `tok (b, s)` and every column `d` of a table `E` with 3882 rows,

      out (b, s, d) = ∑ n < 3882, hot (tok (b, s)) n * E (n, d),

  where `hot w n` is one when the 32-bit word `w` is the word of `n` and zero otherwise (Proof/OneHotSum.lean).

  The reference builds the `[128, 512, 3882]` one-hot array and contracts it with the table: entry by entry that is
  the sum above (Proof/RefValue.lean, over the generated reading of the reference's run).

  The kernel flattens the tokens to 65536 rows, continues the table by zero rows to 4096, and runs 32 grid steps of 2048
  rows each.  A step zeroes an accumulator and adds, for each of eight chunks of 512 table rows, the product of the
  chunk's one-hot block (`token - offset` compared with the lane number) with the chunk
  (Proof/KernelPiece.lean: what the step leaves; Proof/KernelBody.lean: its entries).  The 32 blocks tile the output,
  which a final host line views as `[128, 512, 128]` (Proof/KernelArray.lean, Proof/HostSide.lean).  The two sides
  meet by three facts: `w - off = j` exactly when `w = off + j` on 32-bit words; `x * 0 = 0` for the padded rows,
  whatever `x`; and sums may be regrouped.  None of them needs the inputs to be finite, so the precondition is never
  opened.  The idealization rewrote no operation, so `preserves` has nothing to state.
-/
import proofs.«149971_j14903536517909_2_alg».proof.Defs
import proofs.«149971_j14903536517909_2_alg».proof.Proof.Gen.Kernel
import proofs.«149971_j14903536517909_2_alg».proof.Proof.Gen.Kernel.Skeleton
import proofs.«149971_j14903536517909_2_alg».proof.Proof.Gen.Kernel.Launch
import proofs.«149971_j14903536517909_2_alg».proof.Proof.Gen.Kernel.Points
import proofs.«149971_j14903536517909_2_alg».proof.Proof.Gen.Kernel.Frame
import proofs.«149971_j14903536517909_2_alg».proof.Proof.Gen.KernelIdeal
import proofs.«149971_j14903536517909_2_alg».proof.Proof.Gen.KernelIdeal.Skeleton
import proofs.«149971_j14903536517909_2_alg».proof.Proof.Gen.KernelIdeal.Launch
import proofs.«149971_j14903536517909_2_alg».proof.Proof.Gen.KernelIdeal.Points
import proofs.«149971_j14903536517909_2_alg».proof.Proof.Gen.KernelIdeal.Frame
import proofs.«149971_j14903536517909_2_alg».proof.Proof.Gen.ReferenceIdeal
import proofs.«149971_j14903536517909_2_alg».proof.Proof.Gen.ReferenceIdeal.Run
import proofs.«149971_j14903536517909_2_alg».proof.Proof.Gen.ReferenceIdeal.Read
import proofs.«149971_j14903536517909_2_alg».proof.Proof.Gen.Pre_finite_inputs
import proofs.«149971_j14903536517909_2_alg».proof.Proof.KernelArray
import proofs.«149971_j14903536517909_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, faults nowhere and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the lookup of the token argument in the table argument, and the arguments agree. -/
theorem algebraic : Cert.algebraic_KernelIdeal_ReferenceIdeal := by
  intro m ρ m' ρ' _ hagree
  refine ⟨fun c => Cert.OneHot.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq_lookup, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
